-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256x1 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 94
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x256, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x256, .f32⟩
  | .hbm, ⟨77, _⟩ => ⟨S850000x1, .f32⟩
  | .hbm, ⟨78, _⟩ => ⟨S850000x256, .f32⟩
  | .hbm, ⟨79, _⟩ => ⟨S850000x256, .f32⟩
  | .hbm, ⟨80, _⟩ => ⟨S_, .f32⟩
  | .hbm, ⟨81, _⟩ => ⟨S50000x256, .f32⟩
  | .hbm, ⟨82, _⟩ => ⟨S850000x1, .i32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S50000x1, .f32⟩
  | .hbm, ⟨91, _⟩ => ⟨S1x1, .f32⟩
  | .hbm, ⟨92, _⟩ => ⟨S50000x1, .f32⟩
  | .hbm, ⟨93, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S50000x256_S256x1_S50000x1_1_0_0_1_n_n_wf : DotDims.WF S50000x256 S256x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .f32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x256, .f32⟩
  | .hbm, ⟨54, _⟩ => ⟨S850000x1, .f32⟩
  | .hbm, ⟨55, _⟩ => ⟨S850000x256, .f32⟩
  | .hbm, ⟨56, _⟩ => ⟨S850000x256, .f32⟩
  | .hbm, ⟨57, _⟩ => ⟨S_, .f32⟩
  | .hbm, ⟨58, _⟩ => ⟨S50000x256, .f32⟩
  | .hbm, ⟨59, _⟩ => ⟨S850000x1, .i32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S50000, .i32⟩
  | .hbm, ⟨69, _⟩ => ⟨S850000, .i32⟩
  | .hbm, ⟨70, _⟩ => ⟨S850000, .i32⟩
  | .hbm, ⟨71, _⟩ => ⟨S_, .f32⟩
  | .hbm, ⟨72, _⟩ => ⟨S850000, .f32⟩
  | .hbm, ⟨73, _⟩ => ⟨S_, .f32⟩
  | .hbm, ⟨74, _⟩ => ⟨S50000, .f32⟩
  | .hbm, ⟨75, _⟩ => ⟨S850000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000, .f32⟩
  | .hbm, ⟨99, _⟩ => ⟨S850000, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x256, .f32⟩
  | .hbm, ⟨109, _⟩ => ⟨S850000x1, .f32⟩
  | .hbm, ⟨110, _⟩ => ⟨S850000x256, .f32⟩
  | .hbm, ⟨111, _⟩ => ⟨S850000x256, .f32⟩
  | .hbm, ⟨112, _⟩ => ⟨S_, .f32⟩
  | .hbm, ⟨113, _⟩ => ⟨S50000x256, .f32⟩
  | .hbm, ⟨114, _⟩ => ⟨S850000x1, .i32⟩
  | .hbm, ⟨115, _⟩ => ⟨S50000x256, .f32⟩
  | .hbm, ⟨116, _⟩ => ⟨S1x256, .f32⟩
  | .hbm, ⟨117, _⟩ => ⟨S50000x256, .f32⟩
  | .hbm, ⟨118, _⟩ => ⟨S50000x256, .f32⟩
  | .hbm, ⟨119, _⟩ => ⟨S_, .f32⟩
  | .hbm, ⟨120, _⟩ => ⟨S50000x256, .f32⟩
  | .hbm, ⟨121, _⟩ => ⟨S50000x256, .f32⟩
  | .hbm, ⟨122, _⟩ => ⟨S50000x1, .f32⟩
  | .hbm, ⟨123, _⟩ => ⟨S1x1, .f32⟩
  | .hbm, ⟨124, _⟩ => ⟨S50000x1, .f32⟩
  | .hbm, ⟨125, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call1_cst : Ref sig .tc := ⟨.hbm, 119, rfl⟩
abbrev main_call1_v0 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The kernel program's run with its result buffer named.

  The program is eight segments — a stretch of host operations, the first launch, two stretches, the second launch, three
  stretches — and the contents of every buffer at each boundary are a fold through them from the launch memory
  (`W0 … W8` of the generated frame module). Every weakly fair execution terminates and ends with every unscoped
  buffer at the last boundary's contents `W8`; in particular the result buffer, and the arguments, which no segment
  writes.
-/
import proofs.«106462_j82377472737433_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run read at the result buffer and the arguments: the result at the last boundary's contents, the arguments as
    launched. -/
theorem run_result : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_fold m ρ)

end Cert.KernelIdeal.Whole

end
-- ==== Proof.Spec.lean ====
/-
  The two-layer graph convolution as one function of the argument arrays.

  With `src`, `dst` the edge lists extended by one self loop per node (850000 = 800000 + 50000 entries), the degree of
  node `v` is the number of entries of `dst` equal to `v`, `dinv = rsqrt (max deg 1)`, and an entry `e` weighs
  `nrm e = dinv (src e) · dinv (dst e)`. One layer takes the rows of a dense product `xw` at the sources, scales row `e` by
  `nrm e`, adds the rows up at their destinations, adds the bias along the columns and clamps at zero. The result is the
  read-out `h₂ · Wfc + bfc` of two such layers, the first over `x · W₁`, the second over `h₁ · W₂`.

  The dense products are parameters here: the kernel computes them one block of rows at a time on the matrix unit, the
  reference by one host product; everything around them is spelt with the same operations in both programs.
-/
import proofs.«106462_j82377472737433_1_alg».proof.KernelIdeal
import Idealize.ShloMosaic.PureOps.Ideal

noncomputable section

namespace Cert.KernelIdeal.Spec

open Idealize.ShloMosaic Cert.KernelIdeal

variable {F : FTy → Type} [FloatOps F] [Cert.KernelIdeal.Facts]
open Cert.KernelIdeal.Facts₀ Cert.KernelIdeal.Facts

/-- The sources: row 0 of the edge array, then every node once (its self loop). -/
def srcs (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destinations: row 1 of the edge array, then every node once. -/
def dsts (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of node numbers as a column of row numbers, a negative one counted from the end. -/
def rowsOf (ix : (⟨S850000, .i32⟩ : BufTy).Contents (Elt F)) : (⟨S850000x1, .i32⟩ : BufTy).Contents (Elt F) :=
  broadcastInDim S850000x1 ![0] bcast_S850000_S850000x1_0 (select (cmpi .slt ix (broadcastInDim S850000 ![] bcast_S_S850000 (constantI S_ 32 0#32))) (addi ix (broadcastInDim S850000 ![] bcast_S_S850000 (constantI S_ 32 50000#32))) ix)

/-- `rsqrt (max deg 1)`, the degree counted by adding a one at every destination. -/
def dinv (dst : (⟨S850000, .i32⟩ : BufTy).Contents (Elt F)) : (⟨S50000, .f32⟩ : BufTy).Contents (Elt F) :=
  Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))) (broadcastInDim S50000 ![] bcast_S_S50000 (constant S_ .f32 0x3F800000#32)))

/-- The weight of each entry: `dinv` at its source times `dinv` at its destination. -/
def weights (src dst : (⟨S850000, .i32⟩ : BufTy).Contents (Elt F)) : (⟨S850000, .f32⟩ : BufTy).Contents (Elt F) :=
  mulf (Host.gather gather_S50000_S850000x1_S850000_n_0_n_n_0_1_1 (dinv dst) (rowsOf src)) (Host.gather gather_S50000_S850000x1_S850000_n_0_n_n_0_1_1 (dinv dst) (rowsOf dst))

/-- One layer over a dense product `xw`: rows taken at the sources, weighted, added up at the destinations, the bias
    added along the columns, clamped at zero. -/
def layer (xw : (⟨S50000x256, .f32⟩ : BufTy).Contents (Elt F)) (src dst : (⟨S850000, .i32⟩ : BufTy).Contents (Elt F))
    (nrm : (⟨S850000, .f32⟩ : BufTy).Contents (Elt F)) (b : (⟨S256, .f32⟩ : BufTy).Contents (Elt F)) :
    (⟨S50000x256, .f32⟩ : BufTy).Contents (Elt F) :=
  maximumf (addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 xw (rowsOf src)) (broadcastInDim S850000x256 ![0, 1] bcast_S850000x1_S850000x256_0_1 (broadcastInDim S850000x1 ![0] bcast_S850000_S850000x1_0 nrm)))) (broadcastInDim S50000x256 ![0, 1] bcast_S1x256_S50000x256_0_1 (broadcastInDim S1x256 ![1] bcast_S256_S1x256_1 b))) (broadcastInDim S50000x256 ![] bcast_S_S50000x256 (constant S_ .f32 0x00000000#32))

/-- The read-out: `h · Wfc + bfc`. -/
def readout (h : (⟨S50000x256, .f32⟩ : BufTy).Contents (Elt F)) (Wfc : (⟨S256x1, .f32⟩ : BufTy).Contents (Elt F))
    (bfc : (⟨S1, .f32⟩ : BufTy).Contents (Elt F)) : (⟨S50000x1, .f32⟩ : BufTy).Contents (Elt F) :=
  addf (Host.dotGeneral dot_S50000x256_S256x1_S50000x1_1_0_0_1_n_n none h Wfc) (broadcastInDim S50000x1 ![0, 1] bcast_S1x1_S50000x1_0_1 (broadcastInDim S1x1 ![1] bcast_S1_S1x1_1 bfc))

/-- The first layer's dense product `x · W₁`, `[50000, 128] × [128, 256]`, as the host computes it. -/
def xw1 (X : (⟨S50000x128, .f32⟩ : BufTy).Contents (Elt F)) (W : (⟨S128x256, .f32⟩ : BufTy).Contents (Elt F)) :
    (⟨S50000x256, .f32⟩ : BufTy).Contents (Elt F) :=
  Host.dotGeneral (DotDims.plain 50000 128 256) none X W

/-- The second layer's dense product `h₁ · W₂`, `[50000, 256] × [256, 256]`, as the host computes it. -/
def xw2 (X : (⟨S50000x256, .f32⟩ : BufTy).Contents (Elt F)) (W : (⟨S256x256, .f32⟩ : BufTy).Contents (Elt F)) :
    (⟨S50000x256, .f32⟩ : BufTy).Contents (Elt F) :=
  Host.dotGeneral (DotDims.plain 50000 256 256) none X W

/-- The whole network over two dense products `mm1 : [50000,128] × [128,256]` and `mm2 : [50000,256] × [256,256]`. -/
def gcn (mm1 : (⟨S50000x128, .f32⟩ : BufTy).Contents (Elt F) → (⟨S128x256, .f32⟩ : BufTy).Contents (Elt F) → (⟨S50000x256, .f32⟩ : BufTy).Contents (Elt F))
    (mm2 : (⟨S50000x256, .f32⟩ : BufTy).Contents (Elt F) → (⟨S256x256, .f32⟩ : BufTy).Contents (Elt F) → (⟨S50000x256, .f32⟩ : BufTy).Contents (Elt F))
    (x : (⟨S50000x128, .f32⟩ : BufTy).Contents (Elt F)) (ei : (⟨S2x800000, .i32⟩ : BufTy).Contents (Elt F))
    (W1 : (⟨S128x256, .f32⟩ : BufTy).Contents (Elt F)) (b1 : (⟨S256, .f32⟩ : BufTy).Contents (Elt F))
    (W2 : (⟨S256x256, .f32⟩ : BufTy).Contents (Elt F)) (b2 : (⟨S256, .f32⟩ : BufTy).Contents (Elt F))
    (Wfc : (⟨S256x1, .f32⟩ : BufTy).Contents (Elt F)) (bfc : (⟨S1, .f32⟩ : BufTy).Contents (Elt F)) :
    (⟨S50000x1, .f32⟩ : BufTy).Contents (Elt F) :=
  readout (layer (mm2 (layer (mm1 x W1) (srcs ei) (dsts ei) (weights (srcs ei) (dsts ei)) b1) W2) (srcs ei) (dsts ei) (weights (srcs ei) (dsts ei)) b2) Wfc bfc

end Cert.KernelIdeal.Spec

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LibDotPlain.lean ====
/-
  A plain matrix product of the host read at an index written by coordinates.

  For the dimension numbers "rows × contraction times contraction × columns" (`DotDims.plain M K N`) the host's
  `dot_general`, read on the extended reals at `(r, c)`, is the sum over `k` of the left operand at `(r, k)` times the
  right operand at `(k, c)`, whatever the schedule key: the same reading as the matrix unit's product into a zero
  accumulator, with no accumulator.
-/
import proofs.«106462_j82377472737433_1_alg».proof.Proof.LibMatmulPlain

namespace Cert.LibDotPlain

open Idealize.ShloMosaic Idealize.ShloMosaic.ValueIdx

variable {M K N : ℕ}

/-- A plain `[M, K] × [K, N]` host product at `(r, c)`: `∑ k, L (r, k) · R (k, c)`. -/
theorem dotGeneral_plain_apply {φ₁ φ₂ : FTy} (prec : Option ContractPrecision) (sched : HostSchedule)
    (L : FVec Ideal ⟨2, ![M, K]⟩ φ₁) (R : FVec Ideal ⟨2, ![K, N]⟩ φ₂) (r : Fin M) (c : Fin N) :
    FloatOps.dotGeneral (DotDims.plain M K N) prec sched L R (ix2 r c) = ∑ k : Fin K, L (ix2 r k) * R (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact Cert.LibMatmulPlain.lhsIdx_row _ _
      | ⟨1, _⟩ => exact (Cert.LibMatmulPlain.lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (Cert.LibMatmulPlain.rhsIdx_row _ _).trans hk
      | ⟨1, _⟩ => exact Cert.LibMatmulPlain.rhsIdx_col _ _)
  rw [el, er]

end Cert.LibDotPlain
-- ==== Proof.LibBlockRows.lean ====
/-
  A dense layer computed one block of rows at a time is the dense layer.

  On the extended reals a matrix product has no schedule: the entry at row `r`, column `c` of `X · W` is
  `∑ k, X (r, k) · W (k, c)` whoever computes it. So when a block `xb` of `B` rows holds rows of `X` (its row `p` is row
  `r` of `X`) and the weight block is the weight matrix, the matrix unit's product of the block into a zero accumulator,
  read at `(p, c)`, is the host's product of the whole matrices read at `(r, c)`: both are that one sum. The operands'
  float formats play no part (a change of format is the identity on the extended reals).
-/
import proofs.«106462_j82377472737433_1_alg».proof.Proof.LibMatmulPlain
import proofs.«106462_j82377472737433_1_alg».proof.Proof.LibDotPlain

namespace Cert.LibBlockRows

open Idealize.ShloMosaic Idealize.ShloMosaic.ValueIdx

/-- Row `p` of a block product is row `r` of the whole product, when row `p` of the block is row `r` of the matrix. -/
theorem block_row {M B K N : ℕ} {φ₁ φ₂ ψ₁ ψ₂ : FTy} (prec prec' : Option ContractPrecision) (sched : HostSchedule)
    (xb : FVec Ideal ⟨2, ![B, K]⟩ φ₁) (wb : FVec Ideal ⟨2, ![K, N]⟩ φ₂)
    (X : FVec Ideal ⟨2, ![M, K]⟩ ψ₁) (Wt : FVec Ideal ⟨2, ![K, N]⟩ ψ₂)
    (p : Fin B) (r : Fin M) (c : Fin N)
    (hx : ∀ k : Fin K, (xb (ix2 p k) : EReal) = X (ix2 r k)) (hw : ∀ k : Fin K, (wb (ix2 k c) : EReal) = Wt (ix2 k c)) :
    FloatOps.matmul (DotDims.plain B K N) prec xb wb (constant (F := Ideal) ⟨2, ![B, N]⟩ .f32 0x00000000#32) (ix2 p c)
      = FloatOps.dotGeneral (DotDims.plain M K N) prec' sched X Wt (ix2 r c) := by
  rw [Cert.LibMatmulPlain.matmul_plain_zero_apply, Cert.LibDotPlain.dotGeneral_plain_apply]
  exact Finset.sum_congr rfl fun k _ => by rw [hx k, hw k]

end Cert.LibBlockRows
-- ==== Proof.Dense1.lean ====
/-
  The first dense stage: what the first launch leaves in its result array.

  The launch walks 25 grid points; point `t` fetches rows `2000·t … 2000·t + 1999` of the left array `X` (50000 × 128),
  the whole right array `W` (128 × 256), multiplies them on the matrix unit into a zero accumulator and writes the
  2000 × 256 product back as rows `2000·t … 2000·t + 1999` of the result. On the extended reals a matrix product has no
  schedule and a change of float format is the identity, so row `p` of block `t`'s product is row `2000·t + p` of the
  product `X · W` of the whole arrays: `∑ k, X (2000·t + p, k) · W (k, q)`. The 25 blocks tile the result array (the
  point that covers row `r` is `r / 2000`), so the array ends holding `X · W`, for any contents `V` the launch is
  entered from.
-/
import proofs.«106462_j82377472737433_1_alg».proof.Proof.Gen.KernelIdeal.Frame
import proofs.«106462_j82377472737433_1_alg».proof.Proof.LibBlockRows
import proofs.«106462_j82377472737433_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Dense

open Cert.KernelIdeal Cert.KernelIdeal.Gen Cert.KernelIdeal.Spec

variable (V : (c : Dev nD) → (b : Ref sig .tc) → Buf (Elt Ideal) ((c : Thread nD τ).loc b))

theorem hz : (![0, 0] : Fin 2 → Nat) = fun _ => 0 := funext fun a => by fin_cases a <;> rfl

/-- One block's product, entry by entry: when row `j 0` of the left block is row `i 0` of `X`, the right block is `W`
    and the columns agree, the block product at `j` is `X · W` at `i`. -/
theorem block1_apply (x0 : Vec Ideal S2000x128 .f32) (x1 : Vec Ideal S128x256 .f32)
    (X : FVec Ideal S50000x128 .f32) (W : FVec Ideal S128x256 .f32) (j : S2000x256.Idx) (i : S50000x256.Idx)
    (hcol : i 1 = j 1)
    (hx : ∀ k : Fin 128, (x0 (ix2 (j 0) k) : EReal) = X (ix2 (i 0) k))
    (hw : ∀ k : Fin 128, (x1 (ix2 k (j 1)) : EReal) = W (ix2 k (j 1))) :
    k0_pay1 x0 x1 j = xw1 (F := Ideal) X W i := by
  rw [eq_ix2 j, eq_ix2 i, hcol]
  unfold k0_pay1 xw1
  exact Cert.LibBlockRows.block_row none none .single (truncf .bf16 x0 bitsLt_bf16_f32) (truncf .bf16 x1 bitsLt_bf16_f32) X W
    (j 0) (i 0) (j 1) hx hw

/-- The printed index maps over the grid: the left and result windows walk the row blocks, the right window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `2000·t …` of the left array. -/
theorem left_block (c : Dev nD) (t : Fin cfg0.N) (y : S2000x128.Idx) (i : S50000x128.Idx)
    (h0 : (i 0).val = t.val * 2000 + (y 0).val) (h1 : (i 1).val = (y 1).val) :
    (iblk0 V c 0 t : S2000x128.Idx → EReal) y = (V c main_arg0 : S50000x128.Idx → EReal) i := by
  obtain ⟨e0, e1, -⟩ := idx0 t
  unfold iblk0
  rw [View.read_apply]
  show (V c main_arg0 : S50000x128.Idx → EReal) (((cfg0.win 0).blk t).view.emb y) = _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The right window's block at every point is the right array. -/
theorem right_block (c : Dev nD) (t : Fin cfg0.N) (y : S128x256.Idx) :
    (iblk0 V c 1 t : S128x256.Idx → EReal) y = (V c main_arg2 : S128x256.Idx → EReal) y := by
  obtain ⟨-, -, e0, e1, -⟩ := idx0 t
  unfold iblk0
  rw [View.read_apply]
  show (V c main_arg2 : S128x256.Idx → EReal) (((cfg0.win 1).blk t).view.emb y) = _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- What point `t` writes back is block `t` of `X · W`. -/
theorem flushed_eq (c : Dev nD) (t : Fin cfg0.N) :
    (dat0 V c).flushed 2 t = ((cfg0.win 2).blk t).view.read (Elt Ideal) (xw1 (F := Ideal) (V c main_arg0) (V c main_arg2)) := by
  obtain ⟨-, -, -, -, e0, e1⟩ := idx0 t
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  funext j
  rw [View.read_apply]
  have hr0 : ((((cfg0.win 2).blk t).view.emb j : S50000x256.Idx) 0).val = t.val * 2000 + (j 0).val := by
    show win0_2.index t (0 : Fin 2) * 2000 + 1 * (j 0).val = _; rw [e0]; omega
  have hr1 : ((((cfg0.win 2).blk t).view.emb j : S50000x256.Idx) 1).val = (j 1).val := by
    show win0_2.index t (1 : Fin 2) * 256 + 1 * (j 1).val = _; rw [e1]; omega
  refine block1_apply (iblk0 V c 0 t) (iblk0 V c 1 t) (V c main_arg0) (V c main_arg2) j (((cfg0.win 2).blk t).view.emb j)
    (Fin.ext hr1) (fun k => ?_) (fun k => ?_)
  · exact left_block V c t (ix2 (j 0) k) (ix2 ((((cfg0.win 2).blk t).view.emb j : S50000x256.Idx) 0) k) hr0 rfl
  · exact right_block V c t (ix2 k (j 1))

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v29).slice (win0_2.rect t)).set ↔ _
  rw [View.set_slice_whole, Rect.mem_set_unit]
  exact Iff.rfl

/-- Every row of the result array is in some point's block: row `r` in point `r / 2000`'s. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := idx0 t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- The result array after the launch is `X · W` of the arrays the launch found. -/
theorem final (c : Dev nD) : (dat0 V c).arrAt 2 cfg0.N = xw1 (F := Ideal) (V c main_arg0) (V c main_arg2) :=
  (dat0 V c).arrAt_eq_of_cover 2 (xw1 (F := Ideal) (V c main_arg0) (V c main_arg2)) (fun t _ => flushed_eq V c t) cover

end Cert.KernelIdeal.Dense

end
-- ==== Proof.Dense2.lean ====
/-
  The second dense stage: what the second launch leaves in its result array.

  The launch walks 25 grid points; point `t` fetches rows `2000·t … 2000·t + 1999` of the left array `X` (50000 × 256),
  the whole right array `W` (256 × 256), multiplies them on the matrix unit into a zero accumulator and writes the
  2000 × 256 product back as rows `2000·t … 2000·t + 1999` of the result. On the extended reals a matrix product has no
  schedule and a change of float format is the identity, so row `p` of block `t`'s product is row `2000·t + p` of the
  product `X · W` of the whole arrays: `∑ k, X (2000·t + p, k) · W (k, q)`. The 25 blocks tile the result array (the
  point that covers row `r` is `r / 2000`), so the array ends holding `X · W`, for any contents `V` the launch is
  entered from.
-/
import proofs.«106462_j82377472737433_1_alg».proof.Proof.Gen.KernelIdeal.Frame
import proofs.«106462_j82377472737433_1_alg».proof.Proof.LibBlockRows
import proofs.«106462_j82377472737433_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Dense2

open Cert.KernelIdeal Cert.KernelIdeal.Gen Cert.KernelIdeal.Spec

variable (V : (c : Dev nD) → (b : Ref sig .tc) → Buf (Elt Ideal) ((c : Thread nD τ).loc b))

theorem hz : (![0, 0] : Fin 2 → Nat) = fun _ => 0 := funext fun a => by fin_cases a <;> rfl

/-- One block's product, entry by entry: when row `j 0` of the left block is row `i 0` of `X`, the right block is `W`
    and the columns agree, the block product at `j` is `X · W` at `i`. -/
theorem block2_apply (x0 : Vec Ideal S2000x256 .f32) (x1 : Vec Ideal S256x256 .f32)
    (X : FVec Ideal S50000x256 .f32) (W : FVec Ideal S256x256 .f32) (j : S2000x256.Idx) (i : S50000x256.Idx)
    (hcol : i 1 = j 1)
    (hx : ∀ k : Fin 256, (x0 (ix2 (j 0) k) : EReal) = X (ix2 (i 0) k))
    (hw : ∀ k : Fin 256, (x1 (ix2 k (j 1)) : EReal) = W (ix2 k (j 1))) :
    k1_pay1 x0 x1 j = xw2 (F := Ideal) X W i := by
  rw [eq_ix2 j, eq_ix2 i, hcol]
  unfold k1_pay1 xw2
  rw [shapeCast_self]
  exact Cert.LibBlockRows.block_row none none .single (truncf .bf16 x0 bitsLt_bf16_f32) (truncf .bf16 x1 bitsLt_bf16_f32) X W
    (j 0) (i 0) (j 1) hx hw

/-- The printed index maps over the grid: the left and result windows walk the row blocks, the right window stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point `t` is rows `2000·t …` of the left array. -/
theorem left_block (c : Dev nD) (t : Fin cfg1.N) (y : S2000x256.Idx) (i : S50000x256.Idx)
    (h0 : (i 0).val = t.val * 2000 + (y 0).val) (h1 : (i 1).val = (y 1).val) :
    (iblk1 V c 0 t : S2000x256.Idx → EReal) y = (V c main_v46 : S50000x256.Idx → EReal) i := by
  obtain ⟨e0, e1, -⟩ := idx1 t
  unfold iblk1
  rw [View.read_apply]
  show (V c main_v46 : S50000x256.Idx → EReal) (((cfg1.win 0).blk t).view.emb y) = _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The right window's block at every point is the right array. -/
theorem right_block (c : Dev nD) (t : Fin cfg1.N) (y : S256x256.Idx) :
    (iblk1 V c 1 t : S256x256.Idx → EReal) y = (V c main_arg4 : S256x256.Idx → EReal) y := by
  obtain ⟨-, -, e0, e1, -⟩ := idx1 t
  unfold iblk1
  rw [View.read_apply]
  show (V c main_arg4 : S256x256.Idx → EReal) (((cfg1.win 1).blk t).view.emb y) = _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- What point `t` writes back is block `t` of `X · W`. -/
theorem flushed_eq (c : Dev nD) (t : Fin cfg1.N) :
    (dat1 V c).flushed 2 t = ((cfg1.win 2).blk t).view.read (Elt Ideal) (xw2 (F := Ideal) (V c main_v46) (V c main_arg4)) := by
  obtain ⟨-, -, -, -, e0, e1⟩ := idx1 t
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  funext j
  rw [View.read_apply]
  have hr0 : ((((cfg1.win 2).blk t).view.emb j : S50000x256.Idx) 0).val = t.val * 2000 + (j 0).val := by
    show win1_2.index t (0 : Fin 2) * 2000 + 1 * (j 0).val = _; rw [e0]; omega
  have hr1 : ((((cfg1.win 2).blk t).view.emb j : S50000x256.Idx) 1).val = (j 1).val := by
    show win1_2.index t (1 : Fin 2) * 256 + 1 * (j 1).val = _; rw [e1]; omega
  refine block2_apply (iblk1 V c 0 t) (iblk1 V c 1 t) (V c main_v46) (V c main_arg4) j (((cfg1.win 2).blk t).view.emb j)
    (Fin.ext hr1) (fun k => ?_) (fun k => ?_)
  · exact left_block V c t (ix2 (j 0) k) (ix2 ((((cfg1.win 2).blk t).view.emb j : S50000x256.Idx) 0) k) hr0 rfl
  · exact right_block V c t (ix2 k (j 1))

/-- An index of the result array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v47).slice (win1_2.rect t)).set ↔ _
  rw [View.set_slice_whole, Rect.mem_set_unit]
  exact Iff.rfl

/-- Every row of the result array is in some point's block: row `r` in point `r / 2000`'s. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, e0, e1⟩ := idx1 t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 256 ≤ (i 1).val ∧ (i 1).val < win1_2.index t (1 : Fin 2) * 256 + 256; rw [e1]; omega

/-- The result array after the launch is `X · W` of the arrays the launch found. -/
theorem final (c : Dev nD) : (dat1 V c).arrAt 2 cfg1.N = xw2 (F := Ideal) (V c main_v46) (V c main_arg4) :=
  (dat1 V c).arrAt_eq_of_cover 2 (xw2 (F := Ideal) (V c main_v46) (V c main_arg4)) (fun t _ => flushed_eq V c t) cover

end Cert.KernelIdeal.Dense2

end
-- ==== Proof.Stretches.lean ====
/-
  The host stretches of the kernel program as functions of the buffers they read.

  From any buffer contents `U`: the stretch before the first launch leaves the self-looped edge lists and the entries'
  weights (and touches no argument); the stretch between the launches leaves one layer of the first launch's result;
  the stretch after the second launch leaves the read-out of one layer of the second launch's result. Each is the
  composition of the stretch's operations, read off their list.
-/
import proofs.«106462_j82377472737433_1_alg».proof.Proof.Gen.KernelIdeal.Launch
import proofs.«106462_j82377472737433_1_alg».proof.Proof.Spec
import Idealize.ShloMosaic.Lib.StableHlo.Run

set_option maxRecDepth 16384

noncomputable section

namespace Cert.KernelIdeal.Stretch

open Cert.KernelIdeal Cert.KernelIdeal.Gen Cert.KernelIdeal.Spec
open Idealize.ShloMosaic Idealize.ShloMosaic.TcCoe Idealize.SL.Sem Idealize.ShloMosaic.StableHlo

variable {F : FTy → Type} [FloatOps F] (U : Valuation τ sig (Elt F))

/-! ## Before the first launch -/

set_option maxHeartbeats 4000000 in
theorem pre_srcs : after hostOps0 U (Proc.devRef .tc main_v5) = srcs (U (Proc.devRef .tc main_arg1)) := by
  after_results_simp <;> rfl

set_option maxHeartbeats 4000000 in
theorem pre_dsts : after hostOps0 U (Proc.devRef .tc main_v6) = dsts (U (Proc.devRef .tc main_arg1)) := by
  after_results_simp <;> rfl

set_option maxHeartbeats 4000000 in
theorem pre_weights : after hostOps0 U (Proc.devRef .tc main_v28)
    = weights (srcs (U (Proc.devRef .tc main_arg1))) (dsts (U (Proc.devRef .tc main_arg1))) := by
  after_results_simp <;> rfl

set_option maxHeartbeats 4000000 in
theorem pre_arg0 : after hostOps0 U (Proc.devRef .tc main_arg0) = U (Proc.devRef .tc main_arg0) := by after_results_simp
set_option maxHeartbeats 4000000 in
theorem pre_arg1 : after hostOps0 U (Proc.devRef .tc main_arg1) = U (Proc.devRef .tc main_arg1) := by after_results_simp
set_option maxHeartbeats 4000000 in
theorem pre_arg2 : after hostOps0 U (Proc.devRef .tc main_arg2) = U (Proc.devRef .tc main_arg2) := by after_results_simp
set_option maxHeartbeats 4000000 in
theorem pre_arg3 : after hostOps0 U (Proc.devRef .tc main_arg3) = U (Proc.devRef .tc main_arg3) := by after_results_simp
set_option maxHeartbeats 4000000 in
theorem pre_arg4 : after hostOps0 U (Proc.devRef .tc main_arg4) = U (Proc.devRef .tc main_arg4) := by after_results_simp
set_option maxHeartbeats 4000000 in
theorem pre_arg5 : after hostOps0 U (Proc.devRef .tc main_arg5) = U (Proc.devRef .tc main_arg5) := by after_results_simp
set_option maxHeartbeats 4000000 in
theorem pre_arg6 : after hostOps0 U (Proc.devRef .tc main_arg6) = U (Proc.devRef .tc main_arg6) := by after_results_simp
set_option maxHeartbeats 4000000 in
theorem pre_arg7 : after hostOps0 U (Proc.devRef .tc main_arg7) = U (Proc.devRef .tc main_arg7) := by after_results_simp

/-! ## Between the launches -/

set_option maxHeartbeats 4000000 in
theorem mid_layer : after hostOps1_1 (after hostOps1 U) (Proc.devRef .tc main_v46)
    = layer (U (Proc.devRef .tc main_v29)) (U (Proc.devRef .tc main_v5)) (U (Proc.devRef .tc main_v6))
        (U (Proc.devRef .tc main_v28)) (U (Proc.devRef .tc main_arg3)) := by
  after_results_simp <;> rfl

set_option maxHeartbeats 4000000 in
theorem mid_v5 : after hostOps1_1 (after hostOps1 U) (Proc.devRef .tc main_v5) = U (Proc.devRef .tc main_v5) := by after_results_simp
set_option maxHeartbeats 4000000 in
theorem mid_v6 : after hostOps1_1 (after hostOps1 U) (Proc.devRef .tc main_v6) = U (Proc.devRef .tc main_v6) := by after_results_simp
set_option maxHeartbeats 4000000 in
theorem mid_v28 : after hostOps1_1 (after hostOps1 U) (Proc.devRef .tc main_v28) = U (Proc.devRef .tc main_v28) := by after_results_simp
set_option maxHeartbeats 4000000 in
theorem mid_arg4 : after hostOps1_1 (after hostOps1 U) (Proc.devRef .tc main_arg4) = U (Proc.devRef .tc main_arg4) := by after_results_simp
set_option maxHeartbeats 4000000 in
theorem mid_arg5 : after hostOps1_1 (after hostOps1 U) (Proc.devRef .tc main_arg5) = U (Proc.devRef .tc main_arg5) := by after_results_simp
set_option maxHeartbeats 4000000 in
theorem mid_arg6 : after hostOps1_1 (after hostOps1 U) (Proc.devRef .tc main_arg6) = U (Proc.devRef .tc main_arg6) := by after_results_simp
set_option maxHeartbeats 4000000 in
theorem mid_arg7 : after hostOps1_1 (after hostOps1 U) (Proc.devRef .tc main_arg7) = U (Proc.devRef .tc main_arg7) := by after_results_simp

/-! ## After the second launch -/

set_option maxHeartbeats 4000000 in
theorem tail_out : after hostOps2_2 (after hostOps2_1 (after hostOps2 U)) (Proc.devRef .tc main_v68)
    = readout (layer (U (Proc.devRef .tc main_v47)) (U (Proc.devRef .tc main_v5)) (U (Proc.devRef .tc main_v6))
        (U (Proc.devRef .tc main_v28)) (U (Proc.devRef .tc main_arg5))) (U (Proc.devRef .tc main_arg6)) (U (Proc.devRef .tc main_arg7)) := by
  after_results_simp <;> rfl

end Cert.KernelIdeal.Stretch

end
-- ==== Proof.KernelValue.lean ====
/-
  The kernel program's result as the network over its two launches' products.

  Walking the boundaries of the run: after the first stretch the self-looped edge lists and the weights are in their
  buffers and stay there to the end (no later segment writes them, and no segment writes an argument); the first launch
  leaves `x · W₁` in its result array; the second stretch makes of it the first layer `h₁`; the second launch leaves
  `h₁ · W₂`; the last stretches make of it the second layer and its read-out.
-/
import proofs.«106462_j82377472737433_1_alg».proof.Proof.Gen.KernelIdeal.Frame
import proofs.«106462_j82377472737433_1_alg».proof.Proof.Spec
import proofs.«106462_j82377472737433_1_alg».proof.Proof.Dense1
import proofs.«106462_j82377472737433_1_alg».proof.Proof.Dense2
import proofs.«106462_j82377472737433_1_alg».proof.Proof.Stretches

set_option maxRecDepth 16384

noncomputable section

namespace Cert.KernelIdeal.Whole

open Cert.KernelIdeal Cert.KernelIdeal.Gen Cert.KernelIdeal.Spec Cert.KernelIdeal.Stretch
open Idealize.ShloMosaic Idealize.ShloMosaic.TcCoe Idealize.SL.Sem

variable (m : (ℓ : Loc nD τ sig) → Buf (Elt Ideal) ℓ) (ρ : Dev nD → PrngReg) (c : Dev nD)

/-! ## At the first launch's entry -/

theorem w1_srcs : W1 m ρ c (Proc.devRef .tc main_v5) = srcs (m ((c : Thread nD τ).loc main_arg1)) := pre_srcs (W0 m ρ c)
theorem w1_dsts : W1 m ρ c (Proc.devRef .tc main_v6) = dsts (m ((c : Thread nD τ).loc main_arg1)) := pre_dsts (W0 m ρ c)
theorem w1_weights : W1 m ρ c (Proc.devRef .tc main_v28) = weights (srcs (m ((c : Thread nD τ).loc main_arg1))) (dsts (m ((c : Thread nD τ).loc main_arg1))) := pre_weights (W0 m ρ c)
theorem w1_arg0 : W1 m ρ c (Proc.devRef .tc main_arg0) = m ((c : Thread nD τ).loc main_arg0) := pre_arg0 (W0 m ρ c)
theorem w1_arg2 : W1 m ρ c (Proc.devRef .tc main_arg2) = m ((c : Thread nD τ).loc main_arg2) := pre_arg2 (W0 m ρ c)
theorem w1_arg3 : W1 m ρ c (Proc.devRef .tc main_arg3) = m ((c : Thread nD τ).loc main_arg3) := pre_arg3 (W0 m ρ c)
theorem w1_arg4 : W1 m ρ c (Proc.devRef .tc main_arg4) = m ((c : Thread nD τ).loc main_arg4) := pre_arg4 (W0 m ρ c)
theorem w1_arg5 : W1 m ρ c (Proc.devRef .tc main_arg5) = m ((c : Thread nD τ).loc main_arg5) := pre_arg5 (W0 m ρ c)
theorem w1_arg6 : W1 m ρ c (Proc.devRef .tc main_arg6) = m ((c : Thread nD τ).loc main_arg6) := pre_arg6 (W0 m ρ c)
theorem w1_arg7 : W1 m ρ c (Proc.devRef .tc main_arg7) = m ((c : Thread nD τ).loc main_arg7) := pre_arg7 (W0 m ρ c)

/-! ## At the first launch's exit -/

theorem w2_srcs : W2 m ρ c (Proc.devRef .tc main_v5) = srcs (m ((c : Thread nD τ).loc main_arg1)) := (W2_of_ne m ρ c main_v5 (by decide)).trans (w1_srcs m ρ c)
theorem w2_dsts : W2 m ρ c (Proc.devRef .tc main_v6) = dsts (m ((c : Thread nD τ).loc main_arg1)) := (W2_of_ne m ρ c main_v6 (by decide)).trans (w1_dsts m ρ c)
theorem w2_weights : W2 m ρ c (Proc.devRef .tc main_v28) = weights (srcs (m ((c : Thread nD τ).loc main_arg1))) (dsts (m ((c : Thread nD τ).loc main_arg1))) :=
  (W2_of_ne m ρ c main_v28 (by decide)).trans (w1_weights m ρ c)
theorem w2_arg3 : W2 m ρ c (Proc.devRef .tc main_arg3) = m ((c : Thread nD τ).loc main_arg3) := (W2_of_ne m ρ c main_arg3 (by decide)).trans (w1_arg3 m ρ c)
theorem w2_arg4 : W2 m ρ c (Proc.devRef .tc main_arg4) = m ((c : Thread nD τ).loc main_arg4) := (W2_of_ne m ρ c main_arg4 (by decide)).trans (w1_arg4 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)

/-- The first launch's result array: `x · W₁`. -/
theorem w2_xw : W2 m ρ c (Proc.devRef .tc main_v29)
    = xw1 (m ((c : Thread nD τ).loc main_arg0)) (m ((c : Thread nD τ).loc main_arg2)) := by
  refine (W2_arr m ρ c 2).trans ((Dense.final (V1 m ρ) c).trans ?_)
  show xw1 (W1 m ρ c (Proc.devRef .tc main_arg0)) (W1 m ρ c (Proc.devRef .tc main_arg2)) = _
  rw [w1_arg0, w1_arg2]

/-! ## At the second launch's entry -/

/-- The first layer. -/
def h1 : (⟨S50000x256, .f32⟩ : BufTy).Contents (Elt Ideal) :=
  layer (xw1 (m ((c : Thread nD τ).loc main_arg0)) (m ((c : Thread nD τ).loc main_arg2))) (srcs (m ((c : Thread nD τ).loc main_arg1))) (dsts (m ((c : Thread nD τ).loc main_arg1)))
    (weights (srcs (m ((c : Thread nD τ).loc main_arg1))) (dsts (m ((c : Thread nD τ).loc main_arg1)))) (m ((c : Thread nD τ).loc main_arg3))

theorem w4_h1 : W4 m ρ c (Proc.devRef .tc main_v46) = h1 m c := by
  refine (mid_layer (W2 m ρ c)).trans ?_
  rw [w2_xw, w2_srcs, w2_dsts, w2_weights, w2_arg3]
  rfl

theorem w4_srcs : W4 m ρ c (Proc.devRef .tc main_v5) = srcs (m ((c : Thread nD τ).loc main_arg1)) := (mid_v5 (W2 m ρ c)).trans (w2_srcs m ρ c)
theorem w4_dsts : W4 m ρ c (Proc.devRef .tc main_v6) = dsts (m ((c : Thread nD τ).loc main_arg1)) := (mid_v6 (W2 m ρ c)).trans (w2_dsts m ρ c)
theorem w4_weights : W4 m ρ c (Proc.devRef .tc main_v28) = weights (srcs (m ((c : Thread nD τ).loc main_arg1))) (dsts (m ((c : Thread nD τ).loc main_arg1))) := (mid_v28 (W2 m ρ c)).trans (w2_weights m ρ c)
theorem w4_arg4 : W4 m ρ c (Proc.devRef .tc main_arg4) = m ((c : Thread nD τ).loc main_arg4) := (mid_arg4 (W2 m ρ c)).trans (w2_arg4 m ρ c)
theorem w4_arg5 : W4 m ρ c (Proc.devRef .tc main_arg5) = m ((c : Thread nD τ).loc main_arg5) := (mid_arg5 (W2 m ρ c)).trans (w2_arg5 m ρ c)
theorem w4_arg6 : W4 m ρ c (Proc.devRef .tc main_arg6) = m ((c : Thread nD τ).loc main_arg6) := (mid_arg6 (W2 m ρ c)).trans (w2_arg6 m ρ c)
theorem w4_arg7 : W4 m ρ c (Proc.devRef .tc main_arg7) = m ((c : Thread nD τ).loc main_arg7) := (mid_arg7 (W2 m ρ c)).trans (w2_arg7 m ρ c)

/-! ## At the second launch's exit -/

theorem w5_srcs : W5 m ρ c (Proc.devRef .tc main_v5) = srcs (m ((c : Thread nD τ).loc main_arg1)) := (W5_of_ne m ρ c main_v5 (by decide)).trans (w4_srcs m ρ c)
theorem w5_dsts : W5 m ρ c (Proc.devRef .tc main_v6) = dsts (m ((c : Thread nD τ).loc main_arg1)) := (W5_of_ne m ρ c main_v6 (by decide)).trans (w4_dsts m ρ c)
theorem w5_weights : W5 m ρ c (Proc.devRef .tc main_v28) = weights (srcs (m ((c : Thread nD τ).loc main_arg1))) (dsts (m ((c : Thread nD τ).loc main_arg1))) :=
  (W5_of_ne m ρ c main_v28 (by decide)).trans (w4_weights m ρ c)
theorem w5_arg5 : W5 m ρ c (Proc.devRef .tc main_arg5) = m ((c : Thread nD τ).loc main_arg5) := (W5_of_ne m ρ c main_arg5 (by decide)).trans (w4_arg5 m ρ c)
theorem w5_arg6 : W5 m ρ c (Proc.devRef .tc main_arg6) = m ((c : Thread nD τ).loc main_arg6) := (W5_of_ne m ρ c main_arg6 (by decide)).trans (w4_arg6 m ρ c)
theorem w5_arg7 : W5 m ρ c (Proc.devRef .tc main_arg7) = m ((c : Thread nD τ).loc main_arg7) := (W5_of_ne m ρ c main_arg7 (by decide)).trans (w4_arg7 m ρ c)

/-- The second launch's result array: `h₁ · W₂`. -/
theorem w5_xw : W5 m ρ c (Proc.devRef .tc main_v47) = xw2 (h1 m c) (m ((c : Thread nD τ).loc main_arg4)) := by
  refine (W5_arr m ρ c 2).trans ((Dense2.final (V4 m ρ) c).trans ?_)
  show xw2 (W4 m ρ c (Proc.devRef .tc main_v46)) (W4 m ρ c (Proc.devRef .tc main_arg4)) = _
  rw [w4_h1, w4_arg4]

/-! ## At the return -/

/-- The result buffer ends holding the network over the two launches' products, of the arguments as launched. -/
theorem result_eq : W8 m ρ c (Proc.devRef .tc main_v68)
    = gcn xw1 xw2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (tail_out (W5 m ρ c)).trans ?_
  rw [w5_xw, w5_srcs, w5_dsts, w5_weights, w5_arg5, w5_arg6, w5_arg7]
  rfl

end Cert.KernelIdeal.Whole

end
-- ==== Proof.RefValue.lean ====
/-
  The reference computes the same function.

  The reference's run ends with its result at the composition of its operations over the arguments: the two layers and
  the read-out spelt operation by operation, each dense product one host product of the whole arrays, the edge lists
  and the weights computed once per layer with the same words. That composition is the network of the specification
  over the host's two products: the records of the two programs name the same dimension numbers and the same shapes.
-/
import proofs.«106462_j82377472737433_1_alg».proof.Proof.Gen.ReferenceIdeal.Run
import proofs.«106462_j82377472737433_1_alg».proof.Proof.Gen.KernelIdeal
import proofs.«106462_j82377472737433_1_alg».proof.Proof.Spec

set_option maxRecDepth 16384

noncomputable section

namespace Cert.ReferenceIdeal.RefValue

open Idealize.ShloMosaic Idealize.ShloMosaic.TcCoe Idealize.SL.Sem
open Cert.KernelIdeal.Spec

variable {F : FTy → Type} [FloatOps F]

set_option maxHeartbeats 4000000 in
/-- The reference's result term is the network over the host's dense products, of the reference's arguments. -/
theorem result_eq (m : (ℓ : Loc Cert.ReferenceIdeal.nD Cert.ReferenceIdeal.τ Cert.ReferenceIdeal.sig) → Buf (Elt F) ℓ)
    (c : Dev Cert.ReferenceIdeal.nD) :
    Cert.ReferenceIdeal.Value.res_main_v93 m c
      = gcn xw1 xw2
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  unfold Cert.ReferenceIdeal.Value.res_main_v93
  rfl

end Cert.ReferenceIdeal.RefValue

end
-- ==== Proof.lean ====
/-
  A two-layer graph convolution with a linear read-out: the kernel program against its reference, on the extended reals.

  Both programs compute, from node features `x`, an edge list, two weight matrices with biases and a read-out column,
  `relu (Â · (relu (Â · (x · W₁) + b₁) · W₂) + b₂) · Wfc + bfc`, where `Â` gathers rows at the sources of the
  self-looped edges, weighs them by `rsqrt (max deg 1)` at both ends and adds them up at the destinations. The programs
  differ only in how the two dense products are made: the kernel launches a row-tiled matrix-unit kernel twice (25 blocks
  of 2000 rows, operands narrowed to bf16 first), the reference multiplies the whole arrays on the host. On the extended
  reals narrowing is the identity and a product has no schedule, so a block of rows of the product is the product of the
  block of rows (Proof/Dense1.lean, Proof/Dense2.lean over Proof/LibBlockRows.lean); every other operation is spelt with
  the same words on both sides (Proof/Spec.lean states the network once; Proof/Stretches.lean and Proof/KernelValue.lean
  read the kernel program's host stretches and launches against it, Proof/RefValue.lean the reference's composed term).
  No law used needs a finite input, so the precondition is never opened.

  The frames of the two kernel programs are the generated ones; the reference's frame is its generated run with the
  result dropped; the idealization rewrote no operation, so `preserves` is trivial.
-/
import proofs.«106462_j82377472737433_1_alg».proof.Defs
import proofs.«106462_j82377472737433_1_alg».proof.Proof.Gen.Kernel
import proofs.«106462_j82377472737433_1_alg».proof.Proof.Gen.Kernel.Skeleton
import proofs.«106462_j82377472737433_1_alg».proof.Proof.Gen.Kernel.Launch
import proofs.«106462_j82377472737433_1_alg».proof.Proof.Gen.Kernel.Points
import proofs.«106462_j82377472737433_1_alg».proof.Proof.Gen.Kernel.Frame
import proofs.«106462_j82377472737433_1_alg».proof.Proof.Gen.KernelIdeal
import proofs.«106462_j82377472737433_1_alg».proof.Proof.Gen.KernelIdeal.Skeleton
import proofs.«106462_j82377472737433_1_alg».proof.Proof.Gen.KernelIdeal.Launch
import proofs.«106462_j82377472737433_1_alg».proof.Proof.Gen.KernelIdeal.Points
import proofs.«106462_j82377472737433_1_alg».proof.Proof.Gen.KernelIdeal.Frame
import proofs.«106462_j82377472737433_1_alg».proof.Proof.Gen.ReferenceIdeal
import proofs.«106462_j82377472737433_1_alg».proof.Proof.Gen.ReferenceIdeal.Run
import proofs.«106462_j82377472737433_1_alg».proof.Proof.Gen.Pre_finite_inputs
import proofs.«106462_j82377472737433_1_alg».proof.Proof.KernelRun
import proofs.«106462_j82377472737433_1_alg».proof.Proof.KernelValue
import proofs.«106462_j82377472737433_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result buffer at the network over the host's two dense products, of arguments that agree. -/
theorem algebraic : Cert.algebraic_KernelIdeal_ReferenceIdeal := by
  intro m ρ m' ρ' _ hagree
  refine ⟨fun c => Cert.KernelIdeal.Spec.gcn Cert.KernelIdeal.Spec.xw1 Cert.KernelIdeal.Spec.xw2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
